-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x32x32 .f32) (main_arg1 : FVec F S32x512 .f32) (main_arg2 : FVec F S32 .f32) (main_arg3 : FVec F S512x32 .f32) (main_arg4 : FVec F S512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x512x1024 : Shape := ⟨3, ![32, 512, 1024]⟩
abbrev S1x32 : Shape := ⟨2, ![1, 32]⟩
abbrev S1x512 : Shape := ⟨2, ![1, 512]⟩
abbrev S4x512x1024 : Shape := ⟨3, ![4, 512, 1024]⟩
abbrev S4x512 : Shape := ⟨2, ![4, 512]⟩
abbrev S4x32 : Shape := ⟨2, ![4, 32]⟩
abbrev S4x512x1 : Shape := ⟨3, ![4, 512, 1]⟩

abbrev nBuf : Space → Nat
  | .hbm => 10
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x512x1024, .f32⟩
  | .hbm, ⟨6, _⟩ => ⟨S1x32, .f32⟩
  | .hbm, ⟨7, _⟩ => ⟨S1x512, .f32⟩
  | .hbm, ⟨8, _⟩ => ⟨S32x512x1024, .f32⟩
  | .hbm, ⟨9, _⟩ => ⟨S32x512x32x32, .f32⟩
  | .local _ .vmem, ⟨0, _⟩ => ⟨S4x512x1024, .f32⟩
  | .local _ .vmem, ⟨1, _⟩ => ⟨S4x512x1024, .f32⟩
  | .local _ .vmem, ⟨2, _⟩ => ⟨S32x512, .f32⟩
  | .local _ .vmem, ⟨3, _⟩ => ⟨S1x32, .f32⟩
  | .local _ .vmem, ⟨4, _⟩ => ⟨S512x32, .f32⟩
  | .local _ .vmem, ⟨5, _⟩ => ⟨S1x512, .f32⟩
  | .local _ .vmem, ⟨6, _⟩ => ⟨S4x512x1024, .f32⟩
  | .local _ .vmem, ⟨7, _⟩ => ⟨S4x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x32x32_S32x512x1024 : S32x512x32x32.ShapeCasts S32x512x1024
  shapeCasts_S32_S1x32 : S32.ShapeCasts S1x32
  shapeCasts_S512_S1x512 : S512.ShapeCasts S1x512
  inb_S4x512x1024_S4x512x1024_0_0_0 : ∀ a, (![0, 0, 0] : Fin 3 → Nat) a + S4x512x1024.size a ≤ S4x512x1024.size a
  h_S4x512x1024 : 0 < S4x512x1024.numel
  shapeCasts_S4x512x1024_S4x512x1024 : S4x512x1024.ShapeCasts S4x512x1024
  reduces_S4x512x1024_S4x512 : S4x512x1024.Reduces [2] S4x512
  inb_S32x512_S32x512_0_0 : ∀ a, (![0, 0] : Fin 2 → Nat) a + S32x512.size a ≤ S32x512.size a
  h_S32x512 : 0 < S32x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4x32 : S1x32.Broadcasts S4x32
  inb_S512x32_S512x32_0_0 : ∀ a, (![0, 0] : Fin 2 → Nat) a + S512x32.size a ≤ S512x32.size a
  h_S512x32 : 0 < S512x32.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4x512 : S1x512.Broadcasts S4x512
  shapeCasts_S4x512_S4x512x1 : S4x512.ShapeCasts S4x512x1
  broadcasts_S4x512x1_S4x512x1024 : S4x512x1.Broadcasts S4x512x1024
  shapeCasts_S32x512x1024_S32x512x32x32 : S32x512x1024.ShapeCasts S32x512x32x32
  dot_S4x512_S32x512_S4x32_1_1_0_0_n_n_wf : DotDims.WF S4x512 S32x512 S4x32 [1] [1] [0] [0] [] []
  dot_S4x32_S512x32_S4x512_1_1_0_0_n_n_wf : DotDims.WF S4x32 S512x32 S4x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S32x512x1024.size a
  hwx0_0 : ∀ i : grid0.Coords, EltTy.bits .f32 = 32 ∨ (Rect.block (s := S32x512x1024) S4x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x1024.size a ≤ S32x512x1024.size a
  hwx0_5 : ∀ i : grid0.Coords, EltTy.bits .f32 = 32 ∨ (Rect.block (s := S32x512x1024) S4x512x1024.size (cc0_transform_5 i) (hinb0_5 i)).WholeWords (EltTy.packing .f32)

variable [Facts₀]

def dot_S4x512_S32x512_S4x32_1_1_0_0_n_n : DotDims S4x512 S32x512 S4x32 where
  lhsContracting := [1]
  rhsContracting := [1]
  lhsNonContracting := [0]
  rhsNonContracting := [0]
  lhsBatch := []
  rhsBatch := []
  wf := dot_S4x512_S32x512_S4x32_1_1_0_0_n_n_wf
def dot_S4x32_S512x32_S4x512_1_1_0_0_n_n : DotDims S4x32 S512x32 S4x512 where
  lhsContracting := [1]
  rhsContracting := [1]
  lhsNonContracting := [0]
  rhsNonContracting := [0]
  lhsBatch := []
  rhsBatch := []
  wf := dot_S4x32_S512x32_S4x512_1_1_0_0_n_n_wf

abbrev win0_0 : Pipeline.Window sig grid0 :=
  Pipeline.Window.ofSpec (Memref.whole main_v0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x512x1024 : Shape := ⟨3, ![32, 512, 1024]⟩
abbrev S1x32 : Shape := ⟨2, ![1, 32]⟩
abbrev S1x512 : Shape := ⟨2, ![1, 512]⟩
abbrev S1x512x1024 : Shape := ⟨3, ![1, 512, 1024]⟩
abbrev S1x512x1 : Shape := ⟨3, ![1, 512, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x512x1024, .f32⟩
  | .hbm, ⟨6, _⟩ => ⟨S512x32, .f32⟩
  | .hbm, ⟨7, _⟩ => ⟨S32x512, .f32⟩
  | .hbm, ⟨8, _⟩ => ⟨S1x32, .f32⟩
  | .hbm, ⟨9, _⟩ => ⟨S1x512, .f32⟩
  | .hbm, ⟨10, _⟩ => ⟨S32x512x1024, .f32⟩
  | .hbm, ⟨11, _⟩ => ⟨S32x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S1x512x1024, .f32⟩
  | .local _ .vmem, ⟨7, _⟩ => ⟨S1x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x32x32_S32x512x1024 : S32x512x32x32.ShapeCasts S32x512x1024
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x512x1024_S1x512 : S1x512x1024.Reduces [2] S1x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x512x1 : S1x512.ShapeCasts S1x512x1
  broadcasts_S1x512x1_S1x512x1024 : S1x512x1.Broadcasts S1x512x1024
  shapeCasts_S32x512x1024_S32x512x32x32 : S32x512x1024.ShapeCasts S32x512x32x32
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S32x512x1024.size a
  hwx0_5 : ∀ i : grid0.Coords, EltTy.bits .f32 = 32 ∨ (Rect.block (s := S32x512x1024) S1x512x1024.size (cc0_transform_5 i) (hinb0_5 i)).WholeWords (EltTy.packing .f32)

variable [Facts₀]

def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.SqueezeExcite.lean ====
/-
  The squeeze-and-excitation block as one function of its five argument arrays, over the extended reals.

  For a batch row `n` with entries `x n k l` (channel `k`, position `l`):
    mean   s k   = (∑ l, x n k l) · 2⁻¹⁰                      (1024 positions; the factor is the word 0x3A800000)
    hidden z m   = max (∑ k, s k · w1 m k + b1 m) 0
    gate   g c   = logistic (∑ m, z m · w2 c m + b2 c)
    result       = x n c l · g c.
  `gate` is the row's gate as a function of the row alone; `rescale` is the whole [32, 512, 1024] array; `result`
  is that array between the two reshapes [32,512,32,32] ↔ [32,512,1024] the programs put around it.
  Both float words stay as words: each side of the comparison carries the same ones.
-/
import Idealize.ShloMosaic.PureOps.Ideal
import Idealize.ShloMosaic.Lib.ValueIdx

noncomputable section

open scoped BigOperators
open Idealize.ShloMosaic Idealize.ShloMosaic.ValueIdx

namespace SqueezeExcite

/-- The gate of one batch row at channel `c`: the logistic of the second dense layer applied to the rectified first
    dense layer of the row's channel means. `xr k l` is the row, `w1 m k` and `w2 c m` the weights as (out, in). -/
def gate (xr : Fin 512 → Fin 1024 → EReal) (w1 : Fin 32 → Fin 512 → EReal) (b1 : Fin 32 → EReal)
    (w2 : Fin 512 → Fin 32 → EReal) (b2 : Fin 512 → EReal) (c : Fin 512) : EReal :=
  Ideal.logistic
    ((∑ m : Fin 32,
        max ((∑ k : Fin 512, ((∑ l : Fin 1024, xr k l) * Ideal.ofBits .f32 0x3A800000#32) * w1 m k) + b1 m)
            (Ideal.ofBits .f32 0x00000000#32) * w2 c m)
      + b2 c)

/-- The gate depends on the row only through its entries. -/
theorem gate_congr {xr xr' : Fin 512 → Fin 1024 → EReal} (h : ∀ k l, xr k l = xr' k l)
    (w1 : Fin 32 → Fin 512 → EReal) (b1 : Fin 32 → EReal) (w2 : Fin 512 → Fin 32 → EReal) (b2 : Fin 512 → EReal)
    (c : Fin 512) : gate xr w1 b1 w2 b2 c = gate xr' w1 b1 w2 b2 c := by
  have : xr = xr' := funext fun k => funext fun l => h k l
  rw [this]

/-- The [32, 512, 1024] array with every entry multiplied by its row's gate at its channel. -/
def rescale (x : (⟨3, ![32, 512, 1024]⟩ : Shape).Idx → EReal) (w1 : Fin 32 → Fin 512 → EReal) (b1 : Fin 32 → EReal)
    (w2 : Fin 512 → Fin 32 → EReal) (b2 : Fin 512 → EReal) : (⟨3, ![32, 512, 1024]⟩ : Shape).Idx → EReal :=
  fun i => x i * gate (fun k l => x (ix3 (i 0) k l)) w1 b1 w2 b2 (i 1)

/-- The block's result from the argument arrays: the image reshaped to [32, 512, 1024], rescaled, reshaped back. The
    weights are read as stored, (out, in); the biases as vectors. -/
def result (hin : (⟨4, ![32, 512, 32, 32]⟩ : Shape).ShapeCasts ⟨3, ![32, 512, 1024]⟩)
    (hout : (⟨3, ![32, 512, 1024]⟩ : Shape).ShapeCasts ⟨4, ![32, 512, 32, 32]⟩)
    (a0 : (⟨4, ![32, 512, 32, 32]⟩ : Shape).Idx → EReal) (a1 : (⟨2, ![32, 512]⟩ : Shape).Idx → EReal)
    (a2 : (⟨1, ![32]⟩ : Shape).Idx → EReal) (a3 : (⟨2, ![512, 32]⟩ : Shape).Idx → EReal)
    (a4 : (⟨1, ![512]⟩ : Shape).Idx → EReal) : (⟨4, ![32, 512, 32, 32]⟩ : Shape).Idx → EReal :=
  shapeCast ⟨4, ![32, 512, 32, 32]⟩
    (rescale (shapeCast ⟨3, ![32, 512, 1024]⟩ a0 hin) (fun m k => a1 (ix2 m k)) (fun m => a2 (ix1 m))
      (fun c m => a3 (ix2 c m)) (fun c => a4 (ix1 c))) hout

end SqueezeExcite

end
-- ==== Proof.KernelGate.lean ====
/-
  The kernel's stored block read at an entry. A grid point holds four batch rows; entry (b, c, l) of what it stores is the
  loaded entry times the gate of row b at channel c, and that gate is `SqueezeExcite.gate` of row b of the loaded block
  and the four parameter blocks. The steps: the lane sum over the 1024 positions is a finite sum; each of the two matrix
  products, contracting the second axis of both operands into a zero accumulator, is the finite sum over that axis; a
  bias row [1, n] broadcast down the four rows reads its one row; the gate [4, 512] laid out as a column [4, 512, 1] and
  broadcast along the positions reads the gate of the entry's row and channel.
-/
import proofs.«152405_g2000202709259100_pallasbulk_1026_20_alg».proof.Proof.Gen.KernelIdeal.Skeleton
import proofs.«152405_g2000202709259100_pallasbulk_1026_20_alg».proof.Proof.SqueezeExcite
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Gate

open Cert.KernelIdeal Cert.KernelIdeal.Gen

/-- The sum over the positions: at (b, k) the sum of the block's row b, channel k. -/
theorem laneSum_apply (x : FVec Ideal S4x512x1024 .f32) (hφ : FKind.Formats .f32)
    (hacc : (0x00000000#32 : BitVec 32) = 0x00000000#32) (b : Fin 4) (k : Fin 512) :
    multiReduction (F := Ideal) .add [2] S4x512 x 0x00000000#32 reduces_S4x512x1024_S4x512 hφ hacc (ix2 b k)
      = ∑ l : Fin 1024, x (ix3 b k l) := by
  refine (Ideal.multiReduction_add_single x 0x00000000#32 reduces_S4x512x1024_S4x512 hφ hacc (ix2 b k)).trans ?_
  refine Finset.sum_congr rfl fun l _ => congrArg x (funext fun a => Fin.ext ?_)
  match a with
  | ⟨0, _⟩ => rfl
  | ⟨1, _⟩ => rfl
  | ⟨2, _⟩ => rfl

/-- A [4, 512] array laid out as a column [4, 512, 1] and broadcast along the 1024 positions reads, at (b, c, l), the
    array at (b, c). -/
theorem column_apply (g : S4x512.Idx → EReal) (b : Fin 4) (c : Fin 512) (l : Fin 1024) :
    broadcastTo S4x512x1024 (shapeCast S4x512x1 g shapeCasts_S4x512_S4x512x1) broadcasts_S4x512x1_S4x512x1024 (ix3 b c l)
      = g (ix2 b c) := by
  refine (broadcastTo_apply _ broadcasts_S4x512x1_S4x512x1024 (ix3 b c l) (ix3 b c (0 : Fin 1)) fun a => ?_).trans ?_
  · match a with
    | ⟨0, _⟩ => rfl
    | ⟨1, _⟩ => rfl
    | ⟨2, _⟩ => rfl
  · refine shapeCast_apply g shapeCasts_S4x512_S4x512x1 (ix3 b c (0 : Fin 1)) (ix2 b c) ?_
    rw [Shape.rowMajor_val_two, Shape.rowMajor_val_three]
    show b.val * 512 + c.val = (b.val * 512 + c.val) * 1 + 0
    omega

/-! ### The two matrix products -/

/-- The first layer's dimension numbers: [4, 512] by [32, 512], both second axes contracted. -/
abbrev dFirst := dot_S4x512_S32x512_S4x32_1_1_0_0_n_n
/-- The second layer's: [4, 32] by [512, 32], both second axes contracted. -/
abbrev dSecond := dot_S4x32_S512x32_S4x512_1_1_0_0_n_n

theorem first_lhs0 (j : S4x32.Idx) (k : dFirst.contr.Idx) : (dFirst.lhsIdx j k 0 : ℕ) = j 0 := by
  simp [DotDims.lhsIdx, dFirst, dot_S4x512_S32x512_S4x32_1_1_0_0_n_n]; rfl
theorem first_rhs0 (j : S4x32.Idx) (k : dFirst.contr.Idx) : (dFirst.rhsIdx j k 0 : ℕ) = j 1 := by
  simp [DotDims.rhsIdx, dFirst, dot_S4x512_S32x512_S4x32_1_1_0_0_n_n]; rfl
theorem second_lhs0 (j : S4x512.Idx) (k : dSecond.contr.Idx) : (dSecond.lhsIdx j k 0 : ℕ) = j 0 := by
  simp [DotDims.lhsIdx, dSecond, dot_S4x32_S512x32_S4x512_1_1_0_0_n_n]; rfl
theorem second_rhs0 (j : S4x512.Idx) (k : dSecond.contr.Idx) : (dSecond.rhsIdx j k 0 : ℕ) = j 1 := by
  simp [DotDims.rhsIdx, dSecond, dot_S4x32_S512x32_S4x512_1_1_0_0_n_n]; rfl

/-- The first product at (b, m): the sum over the 512 channels of the left row b against the right row m. -/
theorem first_apply (s : FVec Ideal S4x512 .f32) (w : FVec Ideal S32x512 .f32) (b : Fin 4) (m : Fin 32) :
    matmul (F := Ideal) dFirst none s w (constant (F := Ideal) S4x32 .f32 0x00000000#32) (ix2 b m)
      = ∑ k : Fin 512, s (ix2 b k) * w (ix2 m k) := by
  refine (Ideal.matmul_constant_zero_apply dFirst none s w (ix2 b m)).trans ?_
  refine (Equiv.sum_comp (contrEquiv1 dFirst 512 rfl rfl).symm _).symm.trans ?_
  refine Finset.sum_congr rfl fun k _ => ?_
  have el : dFirst.lhsIdx (ix2 b m) ((contrEquiv1 dFirst 512 rfl rfl).symm k) = ix2 b k := by
    funext a; apply Fin.ext
    match a with
    | ⟨0, _⟩ => exact first_lhs0 _ _
    | ⟨1, _⟩ => exact (dFirst.lhsIdx_val_of_single (cl := 1) rfl _ _).trans (contrEquiv1_symm_val dFirst 512 rfl rfl k)
  have er : dFirst.rhsIdx (ix2 b m) ((contrEquiv1 dFirst 512 rfl rfl).symm k) = ix2 m k := by
    funext a; apply Fin.ext
    match a with
    | ⟨0, _⟩ => exact first_rhs0 _ _
    | ⟨1, _⟩ => exact (dFirst.rhsIdx_val_of_single (cr := 1) rfl _ _).trans (contrEquiv1_symm_val dFirst 512 rfl rfl k)
  rw [el, er]

/-- The second product at (b, c): the sum over the 32 hidden units of the left row b against the right row c. -/
theorem second_apply (z : FVec Ideal S4x32 .f32) (w : FVec Ideal S512x32 .f32) (b : Fin 4) (c : Fin 512) :
    matmul (F := Ideal) dSecond none z w (constant (F := Ideal) S4x512 .f32 0x00000000#32) (ix2 b c)
      = ∑ m : Fin 32, z (ix2 b m) * w (ix2 c m) := by
  refine (Ideal.matmul_constant_zero_apply dSecond none z w (ix2 b c)).trans ?_
  refine (Equiv.sum_comp (contrEquiv1 dSecond 32 rfl rfl).symm _).symm.trans ?_
  refine Finset.sum_congr rfl fun m _ => ?_
  have el : dSecond.lhsIdx (ix2 b c) ((contrEquiv1 dSecond 32 rfl rfl).symm m) = ix2 b m := by
    funext a; apply Fin.ext
    match a with
    | ⟨0, _⟩ => exact second_lhs0 _ _
    | ⟨1, _⟩ => exact (dSecond.lhsIdx_val_of_single (cl := 1) rfl _ _).trans (contrEquiv1_symm_val dSecond 32 rfl rfl m)
  have er : dSecond.rhsIdx (ix2 b c) ((contrEquiv1 dSecond 32 rfl rfl).symm m) = ix2 c m := by
    funext a; apply Fin.ext
    match a with
    | ⟨0, _⟩ => exact second_rhs0 _ _
    | ⟨1, _⟩ => exact (dSecond.rhsIdx_val_of_single (cr := 1) rfl _ _).trans (contrEquiv1_symm_val dSecond 32 rfl rfl m)
  rw [el, er]

/-! ### The stored block -/

/-- THE STORED BLOCK AT AN ENTRY: the loaded entry times the gate of its row at its channel. -/
theorem payload_apply (x0 : Vec Ideal S4x512x1024 .f32) (x1 : Vec Ideal S32x512 .f32) (x2 : Vec Ideal S1x32 .f32)
    (x3 : Vec Ideal S512x32 .f32) (x4 : Vec Ideal S1x512 .f32) (b : Fin 4) (c : Fin 512) (l : Fin 1024) :
    k0_pay1 (F := Ideal) x0 x1 x2 x3 x4 (ix3 b c l)
      = x0 (ix3 b c l) * SqueezeExcite.gate (fun k l => x0 (ix3 b k l)) (fun m k => x1 (ix2 m k))
          (fun m => x2 (ix2 (0 : Fin 1) m)) (fun c m => x3 (ix2 c m)) (fun c => x4 (ix2 (0 : Fin 1) c)) c := by
  unfold k0_pay1
  simp only [shapeCast_self, mulf_apply, column_apply, logistic, Ideal.logistic_def, addf_apply, second_apply,
    broadcastTo_1b_ab_apply, maximumf_apply, broadcast_apply, first_apply, Ideal.ofBits_def, SqueezeExcite.gate]
  refine congrArg (x0 (ix3 b c l) * ·) (congrArg Ideal.logistic (congrArg (· + x4 (ix2 (0 : Fin 1) c))
    (Finset.sum_congr rfl fun m _ => ?_)))
  refine congrArg (· * x3 (ix2 c m)) (congrArg (max · (Ideal.ofBits .f32 0x00000000#32))
    (congrArg (· + x2 (ix2 (0 : Fin 1) m)) (Finset.sum_congr rfl fun k _ => ?_)))
  exact congrArg (· * x1 (ix2 m k)) (congrArg (· * Ideal.ofBits .f32 0x3A800000#32) (laneSum_apply x0 _ _ b k))

/-- THE STORED BLOCK AS ROWS OF THE RESCALED ARRAY. When the loaded block is rows 4t … 4t + 3 of an array `X` and the four
    parameter blocks are the parameter arrays, entry (b, c, l) of the stored block is entry (4t + b, c, l) of `X` rescaled:
    the gate of row b of the block is the gate of row 4t + b of `X`. -/
theorem block_apply (x0 : Vec Ideal S4x512x1024 .f32) (x1 : Vec Ideal S32x512 .f32) (x2 : Vec Ideal S1x32 .f32)
    (x3 : Vec Ideal S512x32 .f32) (x4 : Vec Ideal S1x512 .f32)
    (X : (⟨3, ![32, 512, 1024]⟩ : Shape).Idx → EReal) (W1 : Fin 32 → Fin 512 → EReal) (B1 : Fin 32 → EReal)
    (W2 : Fin 512 → Fin 32 → EReal) (B2 : Fin 512 → EReal) (t : ℕ) (ht : t < 8)
    (hx : ∀ (b : Fin 4) (k : Fin 512) (l : Fin 1024),
      x0 (ix3 b k l) = X (ix3 (⟨4 * t + b.val, by omega⟩ : Fin 32) k l))
    (h1 : ∀ (p : Fin 32) (q : Fin 512), x1 (ix2 p q) = W1 p q) (h2 : ∀ q : Fin 32, x2 (ix2 (0 : Fin 1) q) = B1 q)
    (h3 : ∀ (p : Fin 512) (q : Fin 32), x3 (ix2 p q) = W2 p q) (h4 : ∀ q : Fin 512, x4 (ix2 (0 : Fin 1) q) = B2 q)
    (b : Fin 4) (c : Fin 512) (l : Fin 1024) :
    k0_pay1 (F := Ideal) x0 x1 x2 x3 x4 (ix3 b c l)
      = SqueezeExcite.rescale X W1 B1 W2 B2 (ix3 (⟨4 * t + b.val, by omega⟩ : Fin 32) c l) := by
  have e1 : (fun m k => x1 (ix2 m k)) = W1 := funext fun p => funext fun q => h1 p q
  have e2 : (fun m => x2 (ix2 (0 : Fin 1) m)) = B1 := funext h2
  have e3 : (fun c m => x3 (ix2 c m)) = W2 := funext fun p => funext fun q => h3 p q
  have e4 : (fun c => x4 (ix2 (0 : Fin 1) c)) = B2 := funext h4
  rw [payload_apply, e1, e2, e3, e4, hx b c l]
  exact congrArg (X (ix3 (⟨4 * t + b.val, by omega⟩ : Fin 32) c l) * ·)
    (SqueezeExcite.gate_congr (fun k l' => hx b k l') W1 B1 W2 B2 c)

end Cert.KernelIdeal.Gate

end
-- ==== Proof.KernelArray.lean ====
/-
  The kernel's result array. Grid point t of eight loads rows 4t … 4t + 3 of the image reshaped to [32, 512, 1024] and the
  four whole parameter arrays (the biases reshaped to rows [1, n]), and writes rows 4t … 4t + 3 of the result. Each written
  block is the corresponding rows of `SqueezeExcite.rescale` of the argument arrays; the eight blocks cover the 32 rows (row
  r lies in block r / 4), so the array the region leaves is the rescaled array, and the reshape after the region gives
  `SqueezeExcite.result`.
-/
import proofs.«152405_g2000202709259100_pallasbulk_1026_20_alg».proof.Proof.Gen.KernelIdeal.Frame
import proofs.«152405_g2000202709259100_pallasbulk_1026_20_alg».proof.Proof.KernelGate
import Idealize.ShloMosaic.Lib.Pipeline.Value
import Idealize.ShloMosaic.Lib.StableHlo.Run
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The image as the region finds it: the argument reshaped to [32, 512, 1024]. -/
abbrev image (c : Dev nD) : S32x512x1024.Idx → EReal :=
  shapeCast S32x512x1024 (m ((c : Thread nD τ).loc main_arg0)) shapeCasts_S32x512x32x32_S32x512x1024

/-- The rescaled array of the argument arrays. -/
def rescaled (c : Dev nD) : S32x512x1024.Idx → EReal :=
  SqueezeExcite.rescale (image m c)
    (fun p q => (m ((c : Thread nD τ).loc main_arg1) : S32x512.Idx → EReal) (ix2 p q))
    (fun q => (m ((c : Thread nD τ).loc main_arg2) : S32.Idx → EReal) (ix1 q))
    (fun p q => (m ((c : Thread nD τ).loc main_arg3) : S512x32.Idx → EReal) (ix2 p q))
    (fun q => (m ((c : Thread nD τ).loc main_arg4) : S512.Idx → EReal) (ix1 q))

/-! ### The arrays the host writes before the region -/

theorem V_main_v0 (c : Dev nD) : (V m c main_v0 : S32x512x1024.Idx → EReal) = image m c := by
  show StableHlo.after hostOps0 (fun b => m (c, b)) (Proc.devRef .tc main_v0) = _
  after_results
  rfl

theorem V_main_v1 (c : Dev nD) : (V m c main_v1 : S1x32.Idx → EReal)
    = shapeCast S1x32 (m ((c : Thread nD τ).loc main_arg2)) shapeCasts_S32_S1x32 := by
  show StableHlo.after hostOps0 (fun b => m (c, b)) (Proc.devRef .tc main_v1) = _
  after_results
  rfl

theorem V_main_v2 (c : Dev nD) : (V m c main_v2 : S1x512.Idx → EReal)
    = shapeCast S1x512 (m ((c : Thread nD τ).loc main_arg4)) shapeCasts_S512_S1x512 := by
  show StableHlo.after hostOps0 (fun b => m (c, b)) (Proc.devRef .tc main_v2) = _
  after_results
  rfl

/-! ### The windows' blocks -/

/-- The index maps over the eight points: the image and the result move one block of four rows per point; the parameters
    stay. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The image block at point t is rows 4t … 4t + 3 of the reshaped image. -/
theorem iblk0_eq (c : Dev nD) (t : Fin cfg0.N) (b : Fin 4) (k : Fin 512) (l : Fin 1024) :
    (iblk m c 0 t : Vec Ideal S4x512x1024 .f32) (ix3 b k l)
      = image m c (ix3 (⟨4 * t.val + b.val, by have := t.isLt; have hN : cfg0.N = 8 := N_0; omega⟩ : Fin 32) k l) := by
  obtain ⟨e0, e1, e2, -⟩ := idx_facts t
  unfold iblk
  rw [View.read_apply]
  show (V m c main_v0 : S32x512x1024.Idx → EReal) _ = _
  rw [V_main_v0]
  refine congrArg (image m c) (funext fun a => Fin.ext ?_)
  match a with
  | ⟨0, _⟩ => show win0_0.index t (0 : Fin 3) * 4 + 1 * b.val = 4 * t.val + b.val; rw [e0]; omega
  | ⟨1, _⟩ => show win0_0.index t (1 : Fin 3) * 512 + 1 * k.val = k.val; rw [e1]; omega
  | ⟨2, _⟩ => show win0_0.index t (2 : Fin 3) * 1024 + 1 * l.val = l.val; rw [e2]; omega

/-- The first weights' block is the whole array. -/
theorem iblk1_eq (c : Dev nD) (t : Fin cfg0.N) (p : Fin 32) (q : Fin 512) :
    (iblk m c 1 t : Vec Ideal S32x512 .f32) (ix2 p q) = (m ((c : Thread nD τ).loc main_arg1) : S32x512.Idx → EReal) (ix2 p q) := by
  obtain ⟨-, -, -, -, -, -, e0, e1, -⟩ := idx_facts t
  unfold iblk
  rw [View.read_apply]
  show (V m c main_arg1 : S32x512.Idx → EReal) _ = _
  rw [V_main_arg1]
  refine congrArg (m ((c : Thread nD τ).loc main_arg1) : S32x512.Idx → EReal) (funext fun a => Fin.ext ?_)
  match a with
  | ⟨0, _⟩ => show win0_1.index t (0 : Fin 2) * 32 + 1 * p.val = p.val; rw [e0]; omega
  | ⟨1, _⟩ => show win0_1.index t (1 : Fin 2) * 512 + 1 * q.val = q.val; rw [e1]; omega

/-- The first bias's block is the bias as a row. -/
theorem iblk2_eq (c : Dev nD) (t : Fin cfg0.N) (q : Fin 32) :
    (iblk m c 2 t : Vec Ideal S1x32 .f32) (ix2 (0 : Fin 1) q) = (m ((c : Thread nD τ).loc main_arg2) : S32.Idx → EReal) (ix1 q) := by
  obtain ⟨-, -, -, -, -, -, -, -, e0, e1, -⟩ := idx_facts t
  unfold iblk
  rw [View.read_apply]
  show (V m c main_v1 : S1x32.Idx → EReal) _ = _
  rw [V_main_v1]
  refine Eq.trans (congrArg _ (funext fun a => Fin.ext ?_)) (shapeCast_a_1a_apply _ shapeCasts_S32_S1x32 (0 : Fin 1) q)
  match a with
  | ⟨0, _⟩ => show win0_2.index t (0 : Fin 2) * 1 + 1 * 0 = 0; rw [e0]
  | ⟨1, _⟩ => show win0_2.index t (1 : Fin 2) * 32 + 1 * q.val = q.val; rw [e1]; omega

/-- The second weights' block is the whole array. -/
theorem iblk3_eq (c : Dev nD) (t : Fin cfg0.N) (p : Fin 512) (q : Fin 32) :
    (iblk m c 3 t : Vec Ideal S512x32 .f32) (ix2 p q) = (m ((c : Thread nD τ).loc main_arg3) : S512x32.Idx → EReal) (ix2 p q) := by
  obtain ⟨-, -, -, -, -, -, -, -, -, -, e0, e1, -⟩ := idx_facts t
  unfold iblk
  rw [View.read_apply]
  show (V m c main_arg3 : S512x32.Idx → EReal) _ = _
  rw [V_main_arg3]
  refine congrArg (m ((c : Thread nD τ).loc main_arg3) : S512x32.Idx → EReal) (funext fun a => Fin.ext ?_)
  match a with
  | ⟨0, _⟩ => show win0_3.index t (0 : Fin 2) * 512 + 1 * p.val = p.val; rw [e0]; omega
  | ⟨1, _⟩ => show win0_3.index t (1 : Fin 2) * 32 + 1 * q.val = q.val; rw [e1]; omega

/-- The second bias's block is the bias as a row. -/
theorem iblk4_eq (c : Dev nD) (t : Fin cfg0.N) (q : Fin 512) :
    (iblk m c 4 t : Vec Ideal S1x512 .f32) (ix2 (0 : Fin 1) q) = (m ((c : Thread nD τ).loc main_arg4) : S512.Idx → EReal) (ix1 q) := by
  obtain ⟨-, -, -, -, -, -, -, -, -, -, -, -, e0, e1⟩ := idx_facts t
  unfold iblk
  rw [View.read_apply]
  show (V m c main_v2 : S1x512.Idx → EReal) _ = _
  rw [V_main_v2]
  refine Eq.trans (congrArg _ (funext fun a => Fin.ext ?_)) (shapeCast_a_1a_apply _ shapeCasts_S512_S1x512 (0 : Fin 1) q)
  match a with
  | ⟨0, _⟩ => show win0_4.index t (0 : Fin 2) * 1 + 1 * 0 = 0; rw [e0]
  | ⟨1, _⟩ => show win0_4.index t (1 : Fin 2) * 512 + 1 * q.val = q.val; rw [e1]; omega

/-! ### What a point writes back, and the array after the run -/

/-- WHAT POINT t WRITES BACK is block t of the rescaled array. -/
theorem flushed_eq (c : Dev nD) (t : Fin cfg0.N) :
    (dats m 0 c).flushed 5 t = ((cfg0.win 5).blk t).view.read (Elt Ideal) (rescaled m c) := by
  have hN : cfg0.N = 8 := N_0
  obtain ⟨-, -, -, e0, e1, e2, -⟩ := idx_facts t
  show (cfg0.win 5).cut (grid0.coords t) ((dats m 0 c).after 5 t) = _
  rw [after0_5]
  unfold out0_5
  rw [View.canon_unit_zero hz3]
  simp only [View.ld_unit_zero (S := S4x512x1024) hz3, View.ld_unit_zero (S := S32x512) hz2,
    View.ld_unit_zero (S := S1x32) hz2, View.ld_unit_zero (S := S512x32) hz2, View.ld_unit_zero (S := S1x512) hz2]
  funext j
  obtain ⟨b, ch, l, rfl⟩ : ∃ (b : Fin 4) (ch : Fin 512) (l : Fin 1024), j = ix3 b ch l := ⟨j 0, j 1, j 2, eq_ix3 j⟩
  refine (Gate.block_apply (iblk m c 0 t) (iblk m c 1 t) (iblk m c 2 t) (iblk m c 3 t) (iblk m c 4 t)
    (image m c)
    (fun p q => (m ((c : Thread nD τ).loc main_arg1) : S32x512.Idx → EReal) (ix2 p q))
    (fun q => (m ((c : Thread nD τ).loc main_arg2) : S32.Idx → EReal) (ix1 q))
    (fun p q => (m ((c : Thread nD τ).loc main_arg3) : S512x32.Idx → EReal) (ix2 p q))
    (fun q => (m ((c : Thread nD τ).loc main_arg4) : S512.Idx → EReal) (ix1 q))
    t.val (by have := t.isLt; omega)
    (fun b k l => iblk0_eq m c t b k l) (fun p q => iblk1_eq m c t p q) (fun q => iblk2_eq m c t q)
    (fun p q => iblk3_eq m c t p q) (fun q => iblk4_eq m c t q) b ch l).trans ?_
  rw [View.read_apply]
  show rescaled m c _ = rescaled m c _
  refine congrArg (rescaled m c) (funext fun a => Fin.ext ?_)
  match a with
  | ⟨0, _⟩ => show 4 * t.val + b.val = win0_5.index t (0 : Fin 3) * 4 + 1 * b.val; rw [e0]; omega
  | ⟨1, _⟩ => show ch.val = win0_5.index t (1 : Fin 3) * 512 + 1 * ch.val; rw [e1]; omega
  | ⟨2, _⟩ => show l.val = win0_5.index t (2 : Fin 3) * 1024 + 1 * l.val; rw [e2]; omega

/-- An index of the result lies in point t's block iff each coordinate lies in the block's range on its axis. -/
theorem mem_blk (t : Fin cfg0.N) (i : S32x512x1024.Idx) :
    i ∈ ((cfg0.win 5).blk t).view.set ↔ ∀ a : Fin 3, win0_5.index t a * S4x512x1024.size a ≤ (i a).val
      ∧ (i a).val < win0_5.index t a * S4x512x1024.size a + S4x512x1024.size a := by
  show i ∈ ((View.whole main_v3).slice (win0_5.rect t)).set ↔ _
  rw [View.set_slice_whole, Rect.mem_set_unit]
  exact Iff.rfl

/-- Row r of the result lies in the block of point r / 4. -/
theorem cover (i : S32x512x1024.Idx) :
    ∃ t : Fin cfg0.N, (cfg0.win 5).flush t = true ∧ i ∈ ((cfg0.win 5).blk t).view.set := by
  have hN : cfg0.N = 8 := N_0
  have hi0 : (i 0).val < 32 := (i 0).isLt
  have hi1 : (i 1).val < 512 := (i 1).isLt
  have hi2 : (i 2).val < 1024 := (i 2).isLt
  obtain ⟨-, -, -, e0, e1, e2, -⟩ := idx_facts ⟨(i 0).val / 4, by omega⟩
  refine ⟨⟨(i 0).val / 4, by omega⟩, flush0_5 _, ?_⟩
  rw [mem_blk]
  intro a
  match a with
  | ⟨0, _⟩ =>
    show win0_5.index ⟨(i 0).val / 4, _⟩ (0 : Fin 3) * 4 ≤ (i 0).val ∧ (i 0).val < win0_5.index ⟨(i 0).val / 4, _⟩ (0 : Fin 3) * 4 + 4
    rw [e0]; show (i 0).val / 4 * 4 ≤ (i 0).val ∧ (i 0).val < (i 0).val / 4 * 4 + 4; omega
  | ⟨1, _⟩ =>
    show win0_5.index ⟨(i 0).val / 4, _⟩ (1 : Fin 3) * 512 ≤ (i 1).val ∧ (i 1).val < win0_5.index ⟨(i 0).val / 4, _⟩ (1 : Fin 3) * 512 + 512
    rw [e1]; omega
  | ⟨2, _⟩ =>
    show win0_5.index ⟨(i 0).val / 4, _⟩ (2 : Fin 3) * 1024 ≤ (i 2).val ∧ (i 2).val < win0_5.index ⟨(i 0).val / 4, _⟩ (2 : Fin 3) * 1024 + 1024
    rw [e2]; omega

/-- THE ARRAY the region leaves is the rescaled array. -/
theorem final (c : Dev nD) : (dats m 0 c).arrAt 5 cfg0.N = rescaled m c :=
  (dats m 0 c).arrAt_eq_of_cover 5 (rescaled m c) (fun t _ => flushed_eq m c t) (cover)

/-! ### The reshape after the region, and the run -/

/-- What the region leaves at its result array, as the lines after the region find it. -/
theorem region_result (c : Dev nD) :
    Pipeline.withArrays (cfgs 0).spec c (V0 m c) (fun w => (dats m 0 c).arrAt w (cfgs 0).N) (Proc.devRef .tc main_v3)
      = rescaled m c :=
  (Pipeline.withArrays_arr spec0 launch0.win.arr_inj c _ _ 5).trans (final m c)

/-- The program's result: the rescaled array reshaped to the image's shape. -/
theorem tail_result (c : Dev nD) :
    Pipeline.afterTail₀ cfgs (dats m) 0 (V0 m) [hostOps1] c main_v4
      = SqueezeExcite.result shapeCasts_S32x512x32x32_S32x512x1024 shapeCasts_S32x512x1024_S32x512x32x32
          (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v4) = _
  after_results
  rw [region_result m c]
  rfl

/-- THE RUN, READ: every weakly fair execution terminates with the result at `SqueezeExcite.result` of the argument arrays
    and the arguments unchanged. -/
theorem run : θ_run defs (onTc (τ := τ) (main (F := Ideal))) ⟨m, fun _ => 0, ρ⟩ fun r => ∀ c : Dev nD,
      r.2.mem ((c.tc : Thread nD τ).loc main_v4)
        = SqueezeExcite.result shapeCasts_S32x512x32x32_S32x512x1024 shapeCasts_S32x512x1024_S32x512x32x32
          (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_result m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Array

end
-- ==== Proof.ReferenceGate.lean ====
/-
  The reference's stored block read at an entry. A grid point holds one batch row; entry (u, c, l) of what it stores is the
  loaded entry times the gate of that row at channel c. The reference's weights arrive transposed, (in, out), and its two
  matrix products contract the left operand's second axis with the right operand's first; the biases are added as the rows
  [1, n] they are. The steps are the kernel's: the lane sum is a finite sum, each product is the finite sum over the
  contracted axis, the gate column broadcast along the positions reads the gate of the entry's channel.
-/
import proofs.«152405_g2000202709259100_pallasbulk_1026_20_alg».proof.Proof.Gen.ReferenceIdeal.Skeleton
import proofs.«152405_g2000202709259100_pallasbulk_1026_20_alg».proof.Proof.SqueezeExcite
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.ReferenceIdeal.Gate

open Cert.ReferenceIdeal Cert.ReferenceIdeal.Gen

/-- The sum over the positions: at (u, k) the sum of the row's channel k. -/
theorem laneSum_apply (x : FVec Ideal S1x512x1024 .f32) (hφ : FKind.Formats .f32)
    (hacc : (0x00000000#32 : BitVec 32) = 0x00000000#32) (u : Fin 1) (k : Fin 512) :
    multiReduction (F := Ideal) .add [2] S1x512 x 0x00000000#32 reduces_S1x512x1024_S1x512 hφ hacc (ix2 u k)
      = ∑ l : Fin 1024, x (ix3 u k l) := by
  refine (Ideal.multiReduction_add_single x 0x00000000#32 reduces_S1x512x1024_S1x512 hφ hacc (ix2 u k)).trans ?_
  refine Finset.sum_congr rfl fun l _ => congrArg x (funext fun a => Fin.ext ?_)
  match a with
  | ⟨0, _⟩ => rfl
  | ⟨1, _⟩ => rfl
  | ⟨2, _⟩ => rfl

/-- A [1, 512] array laid out as a column [1, 512, 1] and broadcast along the 1024 positions reads, at (u, c, l), the
    array at (u, c). -/
theorem column_apply (g : S1x512.Idx → EReal) (u : Fin 1) (c : Fin 512) (l : Fin 1024) :
    broadcastTo S1x512x1024 (shapeCast S1x512x1 g shapeCasts_S1x512_S1x512x1) broadcasts_S1x512x1_S1x512x1024 (ix3 u c l)
      = g (ix2 u c) := by
  have hu : u.val = 0 := by omega
  refine (broadcastTo_apply _ broadcasts_S1x512x1_S1x512x1024 (ix3 u c l) (ix3 u c (0 : Fin 1)) fun a => ?_).trans ?_
  · match a with
    | ⟨0, _⟩ => exact hu
    | ⟨1, _⟩ => rfl
    | ⟨2, _⟩ => rfl
  · refine shapeCast_apply g shapeCasts_S1x512_S1x512x1 (ix3 u c (0 : Fin 1)) (ix2 u c) ?_
    rw [Shape.rowMajor_val_two, Shape.rowMajor_val_three]
    show u.val * 512 + c.val = (u.val * 512 + c.val) * 1 + 0
    omega

/-! ### The two matrix products -/

/-- The first layer's dimension numbers: [1, 512] by [512, 32], the left's second axis against the right's first. -/
abbrev dFirst := dot_S1x512_S512x32_S1x32_1_0_0_1_n_n
/-- The second layer's: [1, 32] by [32, 512], likewise. -/
abbrev dSecond := dot_S1x32_S32x512_S1x512_1_0_0_1_n_n

theorem first_lhs0 (j : S1x32.Idx) (k : dFirst.contr.Idx) : (dFirst.lhsIdx j k 0 : ℕ) = j 0 := by
  have h : (j 0).val < 1 := (j 0).isLt
  have h' : (dFirst.lhsIdx j k 0).val < 1 := (dFirst.lhsIdx j k 0).isLt
  omega
theorem first_rhs1 (j : S1x32.Idx) (k : dFirst.contr.Idx) : (dFirst.rhsIdx j k 1 : ℕ) = j 1 := by
  simp [DotDims.rhsIdx, dFirst, dot_S1x512_S512x32_S1x32_1_0_0_1_n_n]; rfl
theorem second_lhs0 (j : S1x512.Idx) (k : dSecond.contr.Idx) : (dSecond.lhsIdx j k 0 : ℕ) = j 0 := by
  have h : (j 0).val < 1 := (j 0).isLt
  have h' : (dSecond.lhsIdx j k 0).val < 1 := (dSecond.lhsIdx j k 0).isLt
  omega
theorem second_rhs1 (j : S1x512.Idx) (k : dSecond.contr.Idx) : (dSecond.rhsIdx j k 1 : ℕ) = j 1 := by
  simp [DotDims.rhsIdx, dSecond, dot_S1x32_S32x512_S1x512_1_0_0_1_n_n]; rfl

/-- The first product at (u, m): the sum over the 512 channels of the left row against the right column m. -/
theorem first_apply (s : FVec Ideal S1x512 .f32) (w : FVec Ideal S512x32 .f32) (u : Fin 1) (m : Fin 32) :
    matmul (F := Ideal) dFirst none s w (constant (F := Ideal) S1x32 .f32 0x00000000#32) (ix2 u m)
      = ∑ k : Fin 512, s (ix2 u k) * w (ix2 k m) := by
  refine (Ideal.matmul_constant_zero_apply dFirst none s w (ix2 u m)).trans ?_
  refine (Equiv.sum_comp (contrEquiv1 dFirst 512 rfl rfl).symm _).symm.trans ?_
  refine Finset.sum_congr rfl fun k _ => ?_
  have el : dFirst.lhsIdx (ix2 u m) ((contrEquiv1 dFirst 512 rfl rfl).symm k) = ix2 u k := by
    funext a; apply Fin.ext
    match a with
    | ⟨0, _⟩ => exact first_lhs0 _ _
    | ⟨1, _⟩ => exact (dFirst.lhsIdx_val_of_single (cl := 1) rfl _ _).trans (contrEquiv1_symm_val dFirst 512 rfl rfl k)
  have er : dFirst.rhsIdx (ix2 u m) ((contrEquiv1 dFirst 512 rfl rfl).symm k) = ix2 k m := by
    funext a; apply Fin.ext
    match a with
    | ⟨0, _⟩ => exact (dFirst.rhsIdx_val_of_single (cr := 0) rfl _ _).trans (contrEquiv1_symm_val dFirst 512 rfl rfl k)
    | ⟨1, _⟩ => exact first_rhs1 _ _
  rw [el, er]

/-- The second product at (u, c): the sum over the 32 hidden units of the left row against the right column c. -/
theorem second_apply (z : FVec Ideal S1x32 .f32) (w : FVec Ideal S32x512 .f32) (u : Fin 1) (c : Fin 512) :
    matmul (F := Ideal) dSecond none z w (constant (F := Ideal) S1x512 .f32 0x00000000#32) (ix2 u c)
      = ∑ m : Fin 32, z (ix2 u m) * w (ix2 m c) := by
  refine (Ideal.matmul_constant_zero_apply dSecond none z w (ix2 u c)).trans ?_
  refine (Equiv.sum_comp (contrEquiv1 dSecond 32 rfl rfl).symm _).symm.trans ?_
  refine Finset.sum_congr rfl fun m _ => ?_
  have el : dSecond.lhsIdx (ix2 u c) ((contrEquiv1 dSecond 32 rfl rfl).symm m) = ix2 u m := by
    funext a; apply Fin.ext
    match a with
    | ⟨0, _⟩ => exact second_lhs0 _ _
    | ⟨1, _⟩ => exact (dSecond.lhsIdx_val_of_single (cl := 1) rfl _ _).trans (contrEquiv1_symm_val dSecond 32 rfl rfl m)
  have er : dSecond.rhsIdx (ix2 u c) ((contrEquiv1 dSecond 32 rfl rfl).symm m) = ix2 m c := by
    funext a; apply Fin.ext
    match a with
    | ⟨0, _⟩ => exact (dSecond.rhsIdx_val_of_single (cr := 0) rfl _ _).trans (contrEquiv1_symm_val dSecond 32 rfl rfl m)
    | ⟨1, _⟩ => exact second_rhs1 _ _
  rw [el, er]

/-! ### The stored block -/

/-- THE STORED BLOCK AT AN ENTRY: the loaded entry times the gate of the row at the entry's channel; the weights are read
    transposed, (in, out). -/
theorem payload_apply (y0 : Vec Ideal S1x512x1024 .f32) (y1 : Vec Ideal S512x32 .f32) (y2 : Vec Ideal S1x32 .f32)
    (y3 : Vec Ideal S32x512 .f32) (y4 : Vec Ideal S1x512 .f32) (u : Fin 1) (c : Fin 512) (l : Fin 1024) :
    k0_pay1 (F := Ideal) y0 y1 y2 y3 y4 (ix3 u c l)
      = y0 (ix3 u c l) * SqueezeExcite.gate (fun k l => y0 (ix3 u k l)) (fun m k => y1 (ix2 k m))
          (fun m => y2 (ix2 u m)) (fun c m => y3 (ix2 m c)) (fun c => y4 (ix2 u c)) c := by
  unfold k0_pay1
  simp only [shapeCast_self, mulf_apply, column_apply, logistic, Ideal.logistic_def, addf_apply, second_apply,
    maximumf_apply, broadcast_apply, first_apply, Ideal.ofBits_def, SqueezeExcite.gate]
  refine congrArg (y0 (ix3 u c l) * ·) (congrArg Ideal.logistic (congrArg (· + y4 (ix2 u c))
    (Finset.sum_congr rfl fun m _ => ?_)))
  refine congrArg (· * y3 (ix2 m c)) (congrArg (max · (Ideal.ofBits .f32 0x00000000#32))
    (congrArg (· + y2 (ix2 u m)) (Finset.sum_congr rfl fun k _ => ?_)))
  exact congrArg (· * y1 (ix2 k m)) (congrArg (· * Ideal.ofBits .f32 0x3A800000#32) (laneSum_apply y0 _ _ u k))

/-- THE STORED BLOCK AS A ROW OF THE RESCALED ARRAY. When the loaded block is row t of an array `X` and the four parameter
    blocks are the parameter arrays, the weights stored transposed, entry (u, c, l) of the stored block is entry (t, c, l) of
    `X` rescaled. -/
theorem block_apply (y0 : Vec Ideal S1x512x1024 .f32) (y1 : Vec Ideal S512x32 .f32) (y2 : Vec Ideal S1x32 .f32)
    (y3 : Vec Ideal S32x512 .f32) (y4 : Vec Ideal S1x512 .f32)
    (X : (⟨3, ![32, 512, 1024]⟩ : Shape).Idx → EReal) (W1 : Fin 32 → Fin 512 → EReal) (B1 : Fin 32 → EReal)
    (W2 : Fin 512 → Fin 32 → EReal) (B2 : Fin 512 → EReal) (t : Fin 32)
    (hx : ∀ (u : Fin 1) (k : Fin 512) (l : Fin 1024), y0 (ix3 u k l) = X (ix3 t k l))
    (h1 : ∀ (p : Fin 32) (q : Fin 512), y1 (ix2 q p) = W1 p q) (h2 : ∀ (u : Fin 1) (q : Fin 32), y2 (ix2 u q) = B1 q)
    (h3 : ∀ (p : Fin 512) (q : Fin 32), y3 (ix2 q p) = W2 p q) (h4 : ∀ (u : Fin 1) (q : Fin 512), y4 (ix2 u q) = B2 q)
    (u : Fin 1) (c : Fin 512) (l : Fin 1024) :
    k0_pay1 (F := Ideal) y0 y1 y2 y3 y4 (ix3 u c l) = SqueezeExcite.rescale X W1 B1 W2 B2 (ix3 t c l) := by
  have e1 : (fun m k => y1 (ix2 k m)) = W1 := funext fun p => funext fun q => h1 p q
  have e2 : (fun m => y2 (ix2 u m)) = B1 := funext (h2 u)
  have e3 : (fun c m => y3 (ix2 m c)) = W2 := funext fun p => funext fun q => h3 p q
  have e4 : (fun c => y4 (ix2 u c)) = B2 := funext (h4 u)
  rw [payload_apply, e1, e2, e3, e4, hx u c l]
  exact congrArg (X (ix3 t c l) * ·) (SqueezeExcite.gate_congr (fun k l' => hx u k l') W1 B1 W2 B2 c)

end Cert.ReferenceIdeal.Gate

end
-- ==== Proof.ReferenceArray.lean ====
/-
  The reference's result array. Grid point t of thirty-two loads row t of the image reshaped to [32, 512, 1024] and the four
  whole parameter arrays as the host prepared them — the weights transposed to (in, out), the biases reshaped to rows
  [1, n] — and writes row t of the result. Each written block is the corresponding row of `SqueezeExcite.rescale` of the
  argument arrays (a transposed weight read at (k, m) is the argument at (m, k)); the thirty-two blocks cover the rows, so
  the array the region leaves is the rescaled array, and the reshape after the region gives `SqueezeExcite.result`.
-/
import proofs.«152405_g2000202709259100_pallasbulk_1026_20_alg».proof.Proof.Gen.ReferenceIdeal.Frame
import proofs.«152405_g2000202709259100_pallasbulk_1026_20_alg».proof.Proof.ReferenceGate
import Idealize.ShloMosaic.Lib.Pipeline.Value
import Idealize.ShloMosaic.Lib.StableHlo.Run
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.ReferenceIdeal.Array

open Cert.ReferenceIdeal Cert.ReferenceIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The image as the region finds it: the argument reshaped to [32, 512, 1024]. -/
abbrev image (c : Dev nD) : S32x512x1024.Idx → EReal :=
  shapeCast S32x512x1024 (m ((c : Thread nD τ).loc main_arg0)) shapeCasts_S32x512x32x32_S32x512x1024

/-- The rescaled array of the argument arrays. -/
def rescaled (c : Dev nD) : S32x512x1024.Idx → EReal :=
  SqueezeExcite.rescale (image m c)
    (fun p q => (m ((c : Thread nD τ).loc main_arg1) : S32x512.Idx → EReal) (ix2 p q))
    (fun q => (m ((c : Thread nD τ).loc main_arg2) : S32.Idx → EReal) (ix1 q))
    (fun p q => (m ((c : Thread nD τ).loc main_arg3) : S512x32.Idx → EReal) (ix2 p q))
    (fun q => (m ((c : Thread nD τ).loc main_arg4) : S512.Idx → EReal) (ix1 q))

/-! ### The arrays the host writes before the region -/

theorem V_main_v0 (c : Dev nD) : (V m c main_v0 : S32x512x1024.Idx → EReal) = image m c := by
  show StableHlo.after hostOps0 (fun b => m (c, b)) (Proc.devRef .tc main_v0) = _
  after_results
  rfl

theorem V_main_v1 (c : Dev nD) : (V m c main_v1 : S512x32.Idx → EReal)
    = transpose S512x32 [1, 0] (m ((c : Thread nD τ).loc main_arg1)) transposes_S32x512_S512x32_1_0 := by
  show StableHlo.after hostOps0 (fun b => m (c, b)) (Proc.devRef .tc main_v1) = _
  after_results

theorem V_main_v2 (c : Dev nD) : (V m c main_v2 : S32x512.Idx → EReal)
    = transpose S32x512 [1, 0] (m ((c : Thread nD τ).loc main_arg3)) transposes_S512x32_S32x512_1_0 := by
  show StableHlo.after hostOps0 (fun b => m (c, b)) (Proc.devRef .tc main_v2) = _
  after_results

theorem V_main_v3 (c : Dev nD) : (V m c main_v3 : S1x32.Idx → EReal)
    = shapeCast S1x32 (m ((c : Thread nD τ).loc main_arg2)) shapeCasts_S32_S1x32 := by
  show StableHlo.after hostOps0 (fun b => m (c, b)) (Proc.devRef .tc main_v3) = _
  after_results
  rfl

theorem V_main_v4 (c : Dev nD) : (V m c main_v4 : S1x512.Idx → EReal)
    = shapeCast S1x512 (m ((c : Thread nD τ).loc main_arg4)) shapeCasts_S512_S1x512 := by
  show StableHlo.after hostOps0 (fun b => m (c, b)) (Proc.devRef .tc main_v4) = _
  after_results
  rfl

/-! ### The windows' blocks -/

/-- The index maps over the thirty-two points: the image and the result move one row per point; the parameters stay. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The image block at point t is row t of the reshaped image. -/
theorem iblk0_eq (c : Dev nD) (t : Fin cfg0.N) (u : Fin 1) (k : Fin 512) (l : Fin 1024) :
    (iblk m c 0 t : Vec Ideal S1x512x1024 .f32) (ix3 u k l)
      = image m c (ix3 (⟨t.val, by have := t.isLt; have hN : cfg0.N = 32 := N_0; omega⟩ : Fin 32) k l) := by
  obtain ⟨e0, e1, e2, -⟩ := idx_facts t
  have hu : u.val = 0 := by omega
  unfold iblk
  rw [View.read_apply]
  show (V m c main_v0 : S32x512x1024.Idx → EReal) _ = _
  rw [V_main_v0]
  refine congrArg (image m c) (funext fun a => Fin.ext ?_)
  match a with
  | ⟨0, _⟩ => show win0_0.index t (0 : Fin 3) * 1 + 1 * u.val = t.val; rw [e0]; omega
  | ⟨1, _⟩ => show win0_0.index t (1 : Fin 3) * 512 + 1 * k.val = k.val; rw [e1]; omega
  | ⟨2, _⟩ => show win0_0.index t (2 : Fin 3) * 1024 + 1 * l.val = l.val; rw [e2]; omega

/-- The first weights' block, the host's transpose, read at (k, m) is the argument at (m, k). -/
theorem iblk1_eq (c : Dev nD) (t : Fin cfg0.N) (p : Fin 32) (q : Fin 512) :
    (iblk m c 1 t : Vec Ideal S512x32 .f32) (ix2 q p) = (m ((c : Thread nD τ).loc main_arg1) : S32x512.Idx → EReal) (ix2 p q) := by
  obtain ⟨-, -, -, -, -, -, e0, e1, -⟩ := idx_facts t
  unfold iblk
  rw [View.read_apply]
  show (V m c main_v1 : S512x32.Idx → EReal) _ = _
  rw [V_main_v1]
  refine Eq.trans (congrArg _ (funext fun a => Fin.ext ?_))
    (transpose_ix2_apply (m ((c : Thread nD τ).loc main_arg1) : S32x512.Idx → EReal) transposes_S32x512_S512x32_1_0 q p)
  match a with
  | ⟨0, _⟩ => show win0_1.index t (0 : Fin 2) * 512 + 1 * q.val = q.val; rw [e0]; omega
  | ⟨1, _⟩ => show win0_1.index t (1 : Fin 2) * 32 + 1 * p.val = p.val; rw [e1]; omega

/-- The first bias's block is the bias as a row. -/
theorem iblk2_eq (c : Dev nD) (t : Fin cfg0.N) (u : Fin 1) (q : Fin 32) :
    (iblk m c 2 t : Vec Ideal S1x32 .f32) (ix2 u q) = (m ((c : Thread nD τ).loc main_arg2) : S32.Idx → EReal) (ix1 q) := by
  obtain ⟨-, -, -, -, -, -, -, -, e0, e1, -⟩ := idx_facts t
  have hu : u.val = 0 := by omega
  unfold iblk
  rw [View.read_apply]
  show (V m c main_v3 : S1x32.Idx → EReal) _ = _
  rw [V_main_v3]
  refine Eq.trans (congrArg _ (funext fun a => Fin.ext ?_)) (shapeCast_a_1a_apply _ shapeCasts_S32_S1x32 u q)
  match a with
  | ⟨0, _⟩ => show win0_2.index t (0 : Fin 2) * 1 + 1 * u.val = u.val; rw [e0]; omega
  | ⟨1, _⟩ => show win0_2.index t (1 : Fin 2) * 32 + 1 * q.val = q.val; rw [e1]; omega

/-- The second weights' block, the host's transpose, read at (m, c) is the argument at (c, m). -/
theorem iblk3_eq (c : Dev nD) (t : Fin cfg0.N) (p : Fin 512) (q : Fin 32) :
    (iblk m c 3 t : Vec Ideal S32x512 .f32) (ix2 q p) = (m ((c : Thread nD τ).loc main_arg3) : S512x32.Idx → EReal) (ix2 p q) := by
  obtain ⟨-, -, -, -, -, -, -, -, -, -, e0, e1, -⟩ := idx_facts t
  unfold iblk
  rw [View.read_apply]
  show (V m c main_v2 : S32x512.Idx → EReal) _ = _
  rw [V_main_v2]
  refine Eq.trans (congrArg _ (funext fun a => Fin.ext ?_))
    (transpose_ix2_apply (m ((c : Thread nD τ).loc main_arg3) : S512x32.Idx → EReal) transposes_S512x32_S32x512_1_0 q p)
  match a with
  | ⟨0, _⟩ => show win0_3.index t (0 : Fin 2) * 32 + 1 * q.val = q.val; rw [e0]; omega
  | ⟨1, _⟩ => show win0_3.index t (1 : Fin 2) * 512 + 1 * p.val = p.val; rw [e1]; omega

/-- The second bias's block is the bias as a row. -/
theorem iblk4_eq (c : Dev nD) (t : Fin cfg0.N) (u : Fin 1) (q : Fin 512) :
    (iblk m c 4 t : Vec Ideal S1x512 .f32) (ix2 u q) = (m ((c : Thread nD τ).loc main_arg4) : S512.Idx → EReal) (ix1 q) := by
  obtain ⟨-, -, -, -, -, -, -, -, -, -, -, -, e0, e1⟩ := idx_facts t
  have hu : u.val = 0 := by omega
  unfold iblk
  rw [View.read_apply]
  show (V m c main_v4 : S1x512.Idx → EReal) _ = _
  rw [V_main_v4]
  refine Eq.trans (congrArg _ (funext fun a => Fin.ext ?_)) (shapeCast_a_1a_apply _ shapeCasts_S512_S1x512 u q)
  match a with
  | ⟨0, _⟩ => show win0_4.index t (0 : Fin 2) * 1 + 1 * u.val = u.val; rw [e0]; omega
  | ⟨1, _⟩ => show win0_4.index t (1 : Fin 2) * 512 + 1 * q.val = q.val; rw [e1]; omega

/-! ### What a point writes back, and the array after the run -/

/-- WHAT POINT t WRITES BACK is block t of the rescaled array. -/
theorem flushed_eq (c : Dev nD) (t : Fin cfg0.N) :
    (dats m 0 c).flushed 5 t = ((cfg0.win 5).blk t).view.read (Elt Ideal) (rescaled m c) := by
  have hN : cfg0.N = 32 := N_0
  obtain ⟨-, -, -, e0, e1, e2, -⟩ := idx_facts t
  show (cfg0.win 5).cut (grid0.coords t) ((dats m 0 c).after 5 t) = _
  rw [after0_5]
  unfold out0_5
  rw [View.canon_unit_zero hz3]
  simp only [View.ld_unit_zero (S := S1x512x1024) hz3, View.ld_unit_zero (S := S512x32) hz2,
    View.ld_unit_zero (S := S1x32) hz2, View.ld_unit_zero (S := S32x512) hz2, View.ld_unit_zero (S := S1x512) hz2]
  funext j
  obtain ⟨u, ch, l, rfl⟩ : ∃ (u : Fin 1) (ch : Fin 512) (l : Fin 1024), j = ix3 u ch l := ⟨j 0, j 1, j 2, eq_ix3 j⟩
  have hu : u.val = 0 := by omega
  refine (Gate.block_apply (iblk m c 0 t) (iblk m c 1 t) (iblk m c 2 t) (iblk m c 3 t) (iblk m c 4 t)
    (image m c)
    (fun p q => (m ((c : Thread nD τ).loc main_arg1) : S32x512.Idx → EReal) (ix2 p q))
    (fun q => (m ((c : Thread nD τ).loc main_arg2) : S32.Idx → EReal) (ix1 q))
    (fun p q => (m ((c : Thread nD τ).loc main_arg3) : S512x32.Idx → EReal) (ix2 p q))
    (fun q => (m ((c : Thread nD τ).loc main_arg4) : S512.Idx → EReal) (ix1 q))
    (⟨t.val, by have := t.isLt; omega⟩ : Fin 32)
    (fun u k l => iblk0_eq m c t u k l) (fun p q => iblk1_eq m c t p q) (fun u q => iblk2_eq m c t u q)
    (fun p q => iblk3_eq m c t p q) (fun u q => iblk4_eq m c t u q) u ch l).trans ?_
  rw [View.read_apply]
  show rescaled m c _ = rescaled m c _
  refine congrArg (rescaled m c) (funext fun a => Fin.ext ?_)
  match a with
  | ⟨0, _⟩ => show t.val = win0_5.index t (0 : Fin 3) * 1 + 1 * u.val; rw [e0]; omega
  | ⟨1, _⟩ => show ch.val = win0_5.index t (1 : Fin 3) * 512 + 1 * ch.val; rw [e1]; omega
  | ⟨2, _⟩ => show l.val = win0_5.index t (2 : Fin 3) * 1024 + 1 * l.val; rw [e2]; omega

/-- An index of the result lies in point t's block iff each coordinate lies in the block's range on its axis. -/
theorem mem_blk (t : Fin cfg0.N) (i : S32x512x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v5).slice (win0_5.rect t)).set ↔ _
  rw [View.set_slice_whole, Rect.mem_set_unit]
  exact Iff.rfl

/-- Row r of the result lies in the block of point r. -/
theorem cover (i : S32x512x1024.Idx) :
    ∃ t : Fin cfg0.N, (cfg0.win 5).flush t = true ∧ i ∈ ((cfg0.win 5).blk t).view.set := by
  have hN : cfg0.N = 32 := N_0
  have hi0 : (i 0).val < 32 := (i 0).isLt
  have hi1 : (i 1).val < 512 := (i 1).isLt
  have hi2 : (i 2).val < 1024 := (i 2).isLt
  obtain ⟨-, -, -, e0, e1, e2, -⟩ := idx_facts ⟨(i 0).val, by omega⟩
  refine ⟨⟨(i 0).val, by omega⟩, flush0_5 _, ?_⟩
  rw [mem_blk]
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [e0]; show (i 0).val * 1 ≤ (i 0).val ∧ (i 0).val < (i 0).val * 1 + 1; omega
  | ⟨1, _⟩ =>
    show win0_5.index ⟨(i 0).val, _⟩ (1 : Fin 3) * 512 ≤ (i 1).val ∧ (i 1).val < win0_5.index ⟨(i 0).val, _⟩ (1 : Fin 3) * 512 + 512
    rw [e1]; omega
  | ⟨2, _⟩ =>
    show win0_5.index ⟨(i 0).val, _⟩ (2 : Fin 3) * 1024 ≤ (i 2).val ∧ (i 2).val < win0_5.index ⟨(i 0).val, _⟩ (2 : Fin 3) * 1024 + 1024
    rw [e2]; omega

/-- THE ARRAY the region leaves is the rescaled array. -/
theorem final (c : Dev nD) : (dats m 0 c).arrAt 5 cfg0.N = rescaled m c :=
  (dats m 0 c).arrAt_eq_of_cover 5 (rescaled m c) (fun t _ => flushed_eq m c t) (cover)

/-! ### The reshape after the region, and the run -/

/-- What the region leaves at its result array, as the lines after the region find it. -/
theorem region_result (c : Dev nD) :
    Pipeline.withArrays (cfgs 0).spec c (V0 m c) (fun w => (dats m 0 c).arrAt w (cfgs 0).N) (Proc.devRef .tc main_v5)
      = rescaled m c :=
  (Pipeline.withArrays_arr spec0 launch0.win.arr_inj c _ _ 5).trans (final m c)

/-- The program's result: the rescaled array reshaped to the image's shape. -/
theorem tail_result (c : Dev nD) :
    Pipeline.afterTail₀ cfgs (dats m) 0 (V0 m) [hostOps1] c main_v6
      = SqueezeExcite.result shapeCasts_S32x512x32x32_S32x512x1024 shapeCasts_S32x512x1024_S32x512x32x32
          (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  rw [region_result m c]
  rfl

/-- THE RUN, READ: every weakly fair execution terminates with the result at `SqueezeExcite.result` of the argument arrays
    and the arguments unchanged. -/
theorem run : θ_run defs (onTc (τ := τ) (main (F := Ideal))) ⟨m, fun _ => 0, ρ⟩ fun r => ∀ c : Dev nD,
      r.2.mem ((c.tc : Thread nD τ).loc main_v6)
        = SqueezeExcite.result shapeCasts_S32x512x32x32_S32x512x1024 shapeCasts_S32x512x1024_S32x512x32x32
          (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.ReferenceIdeal.Array

end
-- ==== Proof.lean ====
/-
  A squeeze-and-excitation block over an image x : [32, 512, 32, 32] with weights w1 : [32, 512], w2 : [512, 32] and biases
  b1 : [32], b2 : [512]. With the image read as [32, 512, 1024] (batch row n, channel c, position l), both programs compute

      out n c l = x n c l · logistic (∑ m, max (∑ k, ((∑ l', x n k l') · 2⁻¹⁰) · w1 m k + b1 m) 0 · w2 c m + b2 c)

  over the extended reals (`SqueezeExcite.result`). The kernel walks the batch four rows at a time and contracts each weight
  matrix along its second axis as stored; the reference walks it one row at a time over weights the host transposed first,
  contracting their first axis. On the extended reals a transposed weight read at (k, m) is the weight at (m, k), each
  contraction is the same finite sum term for term, and the gate of a row depends on that row alone, so the tilings do not
  matter: each program's written blocks are rows of one and the same array (`KernelArray`, `ReferenceArray`). No law that
  needs finite entries is used; the precondition is not opened. The idealized kernel is the kernel's own text (no rewrite to
  account for), and the three frames are the generated ones.
-/
import proofs.«152405_g2000202709259100_pallasbulk_1026_20_alg».proof.Defs
import proofs.«152405_g2000202709259100_pallasbulk_1026_20_alg».proof.Proof.Gen.Kernel
import proofs.«152405_g2000202709259100_pallasbulk_1026_20_alg».proof.Proof.Gen.Kernel.Skeleton
import proofs.«152405_g2000202709259100_pallasbulk_1026_20_alg».proof.Proof.Gen.Kernel.Launch
import proofs.«152405_g2000202709259100_pallasbulk_1026_20_alg».proof.Proof.Gen.Kernel.Points
import proofs.«152405_g2000202709259100_pallasbulk_1026_20_alg».proof.Proof.Gen.Kernel.Frame
import proofs.«152405_g2000202709259100_pallasbulk_1026_20_alg».proof.Proof.Gen.KernelIdeal
import proofs.«152405_g2000202709259100_pallasbulk_1026_20_alg».proof.Proof.Gen.KernelIdeal.Skeleton
import proofs.«152405_g2000202709259100_pallasbulk_1026_20_alg».proof.Proof.Gen.KernelIdeal.Launch
import proofs.«152405_g2000202709259100_pallasbulk_1026_20_alg».proof.Proof.Gen.KernelIdeal.Points
import proofs.«152405_g2000202709259100_pallasbulk_1026_20_alg».proof.Proof.Gen.KernelIdeal.Frame
import proofs.«152405_g2000202709259100_pallasbulk_1026_20_alg».proof.Proof.Gen.ReferenceIdeal
import proofs.«152405_g2000202709259100_pallasbulk_1026_20_alg».proof.Proof.Gen.ReferenceIdeal.Skeleton
import proofs.«152405_g2000202709259100_pallasbulk_1026_20_alg».proof.Proof.Gen.ReferenceIdeal.Launch
import proofs.«152405_g2000202709259100_pallasbulk_1026_20_alg».proof.Proof.Gen.ReferenceIdeal.Points
import proofs.«152405_g2000202709259100_pallasbulk_1026_20_alg».proof.Proof.Gen.ReferenceIdeal.Frame
import proofs.«152405_g2000202709259100_pallasbulk_1026_20_alg».proof.Proof.Gen.Pre_finite_inputs
import proofs.«152405_g2000202709259100_pallasbulk_1026_20_alg».proof.Proof.KernelArray
import proofs.«152405_g2000202709259100_pallasbulk_1026_20_alg».proof.Proof.ReferenceArray
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- And the reference's. -/
theorem frame_referenceIdeal : Cert.frame_ReferenceIdeal := fun m ρ _ => Cert.ReferenceIdeal.Gen.frame m ρ

/-- Nothing was rewritten between the kernel and its reading over the extended reals. -/
theorem preserves : Cert.preserves_Kernel_KernelIdeal := trivial

/-- From arguments that agree, both programs end with the result at `SqueezeExcite.result` of those arguments. -/
theorem algebraic : Cert.algebraic_KernelIdeal_ReferenceIdeal := by
  intro m ρ m' ρ' _ hagree
  refine ⟨fun c => SqueezeExcite.result Cert.KernelIdeal.Gen.shapeCasts_S32x512x32x32_S32x512x1024
      Cert.KernelIdeal.Gen.shapeCasts_S32x512x1024_S32x512x32x32
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Array.run m ρ, ?_⟩
  refine (θ_run Cert.ReferenceIdeal.defs _ _).mono (fun _ h c => ⟨(h c).1.trans ?_, (h c).2⟩)
    (Cert.ReferenceIdeal.Array.run m' ρ')
  obtain ⟨a0, a1, a2, a3, a4⟩ := hagree c
  rw [a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
